-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg15
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 89
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x2, .f32⟩
  | .hbm, ⟨16, _⟩ => ⟨S2, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S_, .f32⟩
  | .hbm, ⟨70, _⟩ => ⟨S512x128, .f32⟩
  | .hbm, ⟨71, _⟩ => ⟨S100000x1, .i32⟩
  | .hbm, ⟨72, _⟩ => ⟨S512x128, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S512, .f32⟩
  | .hbm, ⟨77, _⟩ => ⟨S100000x1, .i32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512x1, .f32⟩
  | .hbm, ⟨83, _⟩ => ⟨S512x128, .f32⟩
  | .hbm, ⟨84, _⟩ => ⟨S512x128, .f32⟩
  | .hbm, ⟨85, _⟩ => ⟨S512x2, .f32⟩
  | .hbm, ⟨86, _⟩ => ⟨S1x2, .f32⟩
  | .hbm, ⟨87, _⟩ => ⟨S512x2, .f32⟩
  | .hbm, ⟨88, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x2, .f32⟩
  | .hbm, ⟨16, _⟩ => ⟨S2, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S512x128, .f32⟩
  | .hbm, ⟨107, _⟩ => ⟨S100000x1, .i32⟩
  | .hbm, ⟨108, _⟩ => ⟨S512x128, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S512, .f32⟩
  | .hbm, ⟨113, _⟩ => ⟨S100000x1, .i32⟩
  | .hbm, ⟨114, _⟩ => ⟨S512, .f32⟩
  | .hbm, ⟨115, _⟩ => ⟨S_, .f32⟩
  | .hbm, ⟨116, _⟩ => ⟨S512, .f32⟩
  | .hbm, ⟨117, _⟩ => ⟨S512, .f32⟩
  | .hbm, ⟨118, _⟩ => ⟨S512x1, .f32⟩
  | .hbm, ⟨119, _⟩ => ⟨S512x128, .f32⟩
  | .hbm, ⟨120, _⟩ => ⟨S512x128, .f32⟩
  | .hbm, ⟨121, _⟩ => ⟨S512x2, .f32⟩
  | .hbm, ⟨122, _⟩ => ⟨S1x2, .f32⟩
  | .hbm, ⟨123, _⟩ => ⟨S512x2, .f32⟩
  | .hbm, ⟨124, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_cst : Ref sig .tc := ⟨.hbm, 67, rfl⟩
abbrev main_call2_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_call4_cst : Ref sig .tc := ⟨.hbm, 77, rfl⟩
abbrev main_call4_v0 : Ref sig .tc := ⟨.hbm, 78, rfl⟩
abbrev main_v46 : Ref sig .tc := ⟨.hbm, 79, rfl⟩
abbrev main_c_4 : Ref sig .tc := ⟨.hbm, 80, rfl⟩
abbrev main_v47 : Ref sig .tc := ⟨.hbm, 81, rfl⟩
abbrev main_v48 : Ref sig .tc := ⟨.hbm, 82, rfl⟩
abbrev main_c_5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call5_cst : Ref sig .tc := ⟨.hbm, 98, rfl⟩
abbrev main_call5_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_7 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_8 : Ref sig .tc := ⟨.hbm, 109, rfl⟩
abbrev main_v70 : Ref sig .tc := ⟨.hbm, 110, rfl⟩
abbrev main_cst_9 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_10 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The kernel program's run, with its result named.

  The program is three launches of the layer kernel among four stretches of host operations. The buffer contents
  at each of the eight boundaries are a fold from the launch memory: a host stretch applies its operations, a
  launch replaces its output array by what its grid points wrote back and leaves every other buffer alone. Every
  weakly fair execution ends with each buffer that outlives the launches at the last boundary's contents; read at
  the result buffer this names the program's result, and read at an argument it gives the argument back.
-/
import proofs.«154400_j58514634441241_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.Run

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibDenseLayer.lean ====
/-
  One dense layer and one rectifier over the extended reals, in the kernel's spelling and in the host's.

  A dense layer sends a matrix h [M, K], a weight w [K, N] and a bias b [N] to the matrix whose entry (r, c) is
  ∑ₖ h(r, k) · w(k, c) + b(c); the rectifier takes the larger of an entry and zero. The kernel spells the layer as
  a matrix product accumulated from zero, of operands passed through a change of float format (the identity on
  the extended reals), plus the bias laid out as a row [1, N] and repeated down the rows. The host spells it as
  `dot_general` plus the bias sent to a row [1, N] and from there to every row. Both are the same function of
  (h, w, b), entry by entry: no sum is reordered and no factor is moved, so no entry need be finite.
  Entry (r, c) of a layer depends on row r of h alone, so a block of consecutive rows of the layer of a long matrix
  is the layer of that block of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«154400_j58514634441241_1_alg».proof.Proof.LibPlainDot

noncomputable section

namespace Cert.LibDenseLayer

open Idealize.ShloMosaic Idealize.ShloMosaic.ValueIdx

variable {M K N : Nat}

/-- The dense layer: entry (r, c) is ∑ₖ h(r, k) · w(k, c) + b(c). -/
def affine (h : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, h (ix2 (i 0) k) * w (ix2 k (i 1))) + b (ix1 (i 1))

/-- The rectifier: the larger of an entry and zero (the zero kept as its float word). -/
def relu {s : Shape} (v : FVec Ideal s .f32) : FVec Ideal s .f32 :=
  fun i => max (v i) (Ideal.ofBits .f32 0x00000000#32)

/-- The kernel's layer: a product accumulated from zero plus a bias row repeated down the rows, the row holding the
    bias vector (`hrow`). -/
theorem matmul_bias (wf : DotDims.WF (⟨2, ![M, K]⟩ : Shape) ⟨2, ![K, N]⟩ ⟨2, ![M, N]⟩ [1] [0] [0] [1] [] [])
    (lt : FTy.bits .bf16 < FTy.bits .f32) (hb : (⟨2, ![1, N]⟩ : Shape).Broadcasts ⟨2, ![M, N]⟩)
    (h : FVec Ideal ⟨2, ![M, K]⟩ .f32) (w : FVec Ideal ⟨2, ![K, N]⟩ .f32)
    (row : FVec Ideal ⟨2, ![1, N]⟩ .f32) (b : FVec Ideal ⟨1, ![N]⟩ .f32)
    (hrow : ∀ c : Fin N, row (ix2 (0 : Fin 1) c) = b (ix1 c)) :
    addf (FloatOps.matmul (LibPlainDot.dims wf) none (truncf .bf16 h lt) (truncf .bf16 w lt)
        (constant ⟨2, ![M, N]⟩ .f32 0x00000000#32)) (broadcastTo ⟨2, ![M, N]⟩ row hb) = affine h w b := by
  funext i
  obtain ⟨r, c, rfl⟩ : ∃ (r : Fin M) (c : Fin N), i = ix2 r c := ⟨i 0, i 1, eq_ix2 i⟩
  rw [addf_apply, LibPlainDot.matmul_zero_apply, broadcastTo_1b_ab_apply, hrow]
  rfl

/-- The host's layer: `dot_general` plus the bias vector sent to a row and from the row to every row. -/
theorem dot_bias (wf : DotDims.WF (⟨2, ![M, K]⟩ : Shape) ⟨2, ![K, N]⟩ ⟨2, ![M, N]⟩ [1] [0] [0] [1] [] [])
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (w : FVec Ideal ⟨2, ![K, N]⟩ .f32) (b : FVec Ideal ⟨1, ![N]⟩ .f32) :
    addf (Host.dotGeneral (LibPlainDot.dims wf) none h w)
        (broadcastInDim ⟨2, ![M, N]⟩ ![0, 1] h2 (broadcastInDim ⟨2, ![1, N]⟩ ![1] h1 b)) = affine h w b := by
  funext i
  obtain ⟨r, c, rfl⟩ : ∃ (r : Fin M) (c : Fin N), i = ix2 r c := ⟨i 0, i 1, eq_ix2 i⟩
  rw [addf_apply]
  show FloatOps.dotGeneral (LibPlainDot.dims wf) none .single h w (ix2 r c) + _ = _
  rw [LibPlainDot.dotGeneral_apply]
  have e2 : broadcastInDim ⟨2, ![M, N]⟩ ![0, 1] h2 (broadcastInDim ⟨2, ![1, N]⟩ ![1] h1 b) (ix2 r c)
      = broadcastInDim ⟨2, ![1, N]⟩ ![1] h1 b (ix2 (0 : Fin 1) c) :=
    broadcastInDim_apply _ h2 _ (ix2 r c) (ix2 (0 : Fin 1) c) (fun a => by
      match a with
      | ⟨0, _⟩ => rfl
      | ⟨1, _⟩ =>
        show c.val = if N = 1 then 0 else c.val
        have := c.isLt
        split <;> omega)
  have e1 : broadcastInDim ⟨2, ![1, N]⟩ ![1] h1 b (ix2 (0 : Fin 1) c) = b (ix1 c) :=
    broadcastInDim_apply _ h1 b (ix2 (0 : Fin 1) c) (ix1 c) (fun a => by
      match a with
      | ⟨0, _⟩ =>
        show c.val = if N = 1 then 0 else c.val
        have := c.isLt
        split <;> omega)
  rw [e2, e1]
  rfl

/-- The kernel's rectifier: the maximum with a scalar zero repeated over the block. -/
theorem max_splat {s : Shape} (v : FVec Ideal s .f32) :
    maximumf v (broadcast s (Scalar.ofBits (F := Ideal) .f32 0x00000000#32)) = relu v := rfl

/-- The host's rectifier: the maximum with a scalar zero constant sent to every entry. -/
theorem max_bcast {s : Shape} (hb : (⟨0, ![]⟩ : Shape).BroadcastsInDim s ![]) (v : FVec Ideal s .f32) :
    maximumf v (broadcastInDim s ![] hb (constant (F := Ideal) ⟨0, ![]⟩ .f32 0x00000000#32)) = relu v := by
  funext i
  rw [maximumf_apply, broadcastInDim_apply _ hb _ i ix0 (fun a => a.elim0)]
  rfl

/-- ROW BLOCKS of a layer: entry (off + p, c) of the layer of a long matrix is entry (p, c) of the layer of the block
    of its rows off … off + B. -/
theorem affine_rows {B off : Nat} (hB : off + B ≤ M)
    (H : FVec Ideal ⟨2, ![M, K]⟩ .f32) (h : FVec Ideal ⟨2, ![B, K]⟩ .f32)
    (w : FVec Ideal ⟨2, ![K, N]⟩ .f32) (b : FVec Ideal ⟨1, ![N]⟩ .f32) (p : Fin B) (c : Fin N)
    (hrows : ∀ k : Fin K, h (ix2 p k) = H (ix2 ⟨off + p.val, by have := p.isLt; omega⟩ k)) :
    affine H w b (ix2 ⟨off + p.val, by have := p.isLt; omega⟩ c) = affine h w b (ix2 p c) := by
  show (∑ k : Fin K, H (ix2 ⟨off + p.val, by have := p.isLt; omega⟩ k) * w (ix2 k c)) + b (ix1 c)
    = (∑ k : Fin K, h (ix2 p k) * w (ix2 k c)) + b (ix1 c)
  exact congrArg (· + b (ix1 c)) (Finset.sum_congr rfl fun k _ => by rw [hrows k])

/-- ROW BLOCKS of a convolution's dense stack: entry (off + p, q) of relu(relu((X + A) · w₁ + b₁) · w₂ + b₂) over the
    long matrices is entry (p, q) of the same stack over the blocks x, a of their rows off … off + B: each layer reads
    row off + p of its operand alone, and that row of X + A is row p of x + a. -/
theorem stack_rows {B off : Nat} (hB : off + B ≤ M)
    (X A : FVec Ideal ⟨2, ![M, K]⟩ .f32) (x a : FVec Ideal ⟨2, ![B, K]⟩ .f32)
    (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (p : Fin B) (q : Fin N)
    (hx : ∀ k : Fin K, x (ix2 p k) = X (ix2 ⟨off + p.val, by have := p.isLt; omega⟩ k))
    (ha : ∀ k : Fin K, a (ix2 p k) = A (ix2 ⟨off + p.val, by have := p.isLt; omega⟩ k)) :
    relu (affine (relu (affine (addf X A) w1 b1)) w2 b2) (ix2 ⟨off + p.val, by have := p.isLt; omega⟩ q)
      = relu (affine (relu (affine (addf x a) w1 b1)) w2 b2) (ix2 p q) := by
  show max (affine (relu (affine (addf X A) w1 b1)) w2 b2 (ix2 ⟨off + p.val, by have := p.isLt; omega⟩ q)) _
    = max (affine (relu (affine (addf x a) w1 b1)) w2 b2 (ix2 p q)) _
  refine congrArg (max · _) (affine_rows hB _ _ w2 b2 p q fun k => ?_)
  show max (affine (addf x a) w1 b1 (ix2 p k)) _ = max (affine (addf X A) w1 b1 (ix2 ⟨off + p.val, by have := p.isLt; omega⟩ k)) _
  refine congrArg (max · _) (affine_rows hB _ _ w1 b1 p k fun j => ?_).symm
  show x (ix2 p j) + a (ix2 p j) = X (ix2 ⟨off + p.val, by have := p.isLt; omega⟩ j) + A (ix2 ⟨off + p.val, by have := p.isLt; omega⟩ j)
  rw [hx j, ha j]

end Cert.LibDenseLayer

end
-- ==== Proof.Spec.lean ====
/-
  A three-layer graph isomorphism network with mean pooling, as one function of its arrays.

  Nodes carry rows of 128 features. One aggregation sends node features h to the array whose row i is the sum,
  over the edges (s, d) with d = i, of row s of h: a gather of the source rows followed by a scatter-add into
  zeros at the target rows, the source indices first wrapped (a negative index counts from the end). One
  convolution applies a two-layer perceptron to h + agg h:
      conv h = max((h + agg h) · w₁ + b₁, 0) · w₂ + b₂ .
  The network is  h₁ = max(conv₀ x, 0),  h₂ = max(conv₁ h₁, 0),  h₃ = conv₂ h₂,  and then, per graph g,
  the mean of the rows of h₃ whose node belongs to g (the sum divided by max(count, 1)), times w_lin, plus b_lin.

  Two laws are all the comparison of the two programs needs, and both hold for every extended real:
  max(max(a, 0), 0) = max(a, 0), and row r of a convolution depends on row r of its two operands alone.
-/
import proofs.«154400_j58514634441241_1_alg».proof.ReferenceIdeal
import proofs.«154400_j58514634441241_1_alg».proof.Proof.LibDenseLayer

noncomputable section

namespace Cert.GinNet

open Idealize.ShloMosaic Idealize.ShloMosaic.ValueIdx Cert.ReferenceIdeal Cert.ReferenceIdeal.Facts₀ Cert.LibDenseLayer

variable [Cert.ReferenceIdeal.Facts]

/-- The edge list [2, E]: row 0 the sources, row 1 the targets. -/
abbrev Edges : Type := (⟨S2x1600000, .i32⟩ : BufTy).Contents (Elt Ideal)
/-- Node features [N, 128]. -/
abbrev Nodes : Type := FVec Ideal S100000x128 .f32
abbrev Weight : Type := FVec Ideal S128x128 .f32
abbrev Bias : Type := FVec Ideal S128 .f32

/-- The source row of the edge list as a flat vector. -/
def srcVec (e : Edges) : (⟨S1600000, .i32⟩ : BufTy).Contents (Elt Ideal) :=
  shapeCast _ (extractStridedSlice S1x1600000 ![0, 0] e slices_S2x1600000_S1x1600000_0_0) shapeCasts_S1x1600000_S1600000

/-- The target row of the edge list as a flat vector. -/
def dstVec (e : Edges) : (⟨S1600000, .i32⟩ : BufTy).Contents (Elt Ideal) :=
  shapeCast _ (extractStridedSlice S1x1600000 ![1, 0] e slices_S2x1600000_S1x1600000_1_0) shapeCasts_S1x1600000_S1600000

/-- Row i of the result: the sum over edges into i of the source's row of h. -/
def agg (e : Edges) (h : Nodes) : Nodes :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstVec e))
    (Host.gather gather_S100000x128_S1600000x1_S1600000x128_1_0_n_n_0_1_1128 h
      (broadcastInDim S1600000x1 ![0] bcast_S1600000_S1600000x1_0
        (select (cmpi .slt (srcVec e) (broadcastInDim S1600000 ![] bcast_S_S1600000 (constantI S_ 32 0#32)))
          (addi (srcVec e) (broadcastInDim S1600000 ![] bcast_S_S1600000 (constantI S_ 32 100000#32)))
          (srcVec e))))

/-- One convolution before its closing rectifier: the two-layer perceptron of h + a. -/
def conv {M : Nat} (h a : FVec Ideal ⟨2, ![M, 128]⟩ .f32) (w1 : Weight) (b1 : Bias) (w2 : Weight) (b2 : Bias) :
    FVec Ideal ⟨2, ![M, 128]⟩ .f32 :=
  affine (relu (affine (addf h a) w1 b1)) w2 b2

/-- Mean pooling per graph, then the final linear layer. -/
def pool (batch : (⟨S100000, .i32⟩ : BufTy).Contents (Elt Ideal)) (h : Nodes)
    (wl : FVec Ideal S128x2 .f32) (bl : FVec Ideal S2 .f32) : FVec Ideal S512x2 .f32 :=
  addf (Host.dotGeneral dot_S512x128_S128x2_S512x2_1_0_0_1_n_n none
      (Host.divf
        (Host.scatterAdd scatter_S512x128_S100000x1_S100000x128_1_0_0_1
          (broadcastInDim S512x128 ![] bcast_S_S512x128 (constant S_ .f32 0x00000000#32))
          (broadcastInDim S100000x1 ![0] bcast_S100000_S100000x1_0 batch) h)
        (broadcastInDim S512x128 ![0, 1] bcast_S512x1_S512x128_0_1 (broadcastInDim S512x1 ![0] bcast_S512_S512x1_0
          (maximumf
            (Host.scatterAdd scatter_S512_S100000x1_S100000_n_0_0_1
              (broadcastInDim S512 ![] bcast_S_S512 (constant S_ .f32 0x00000000#32))
              (broadcastInDim S100000x1 ![0] bcast_S100000_S100000x1_0 batch)
              (broadcastInDim S100000 ![] bcast_S_S100000 (constant S_ .f32 0x3F800000#32)))
            (broadcastInDim S512 ![] bcast_S_S512 (constant S_ .f32 0x3F800000#32))))))
      wl)
    (broadcastInDim S512x2 ![0, 1] bcast_S1x2_S512x2_0_1 (broadcastInDim S1x2 ![1] bcast_S2_S1x2_1 bl))

/-- A rectified convolution layer: max(conv h, 0) with the aggregation of h itself. -/
def layer (e : Edges) (h : Nodes) (w1 : Weight) (b1 : Bias) (w2 : Weight) (b2 : Bias) : Nodes :=
  relu (conv h (agg e h) w1 b1 w2 b2)

/-- The whole network. -/
def net (x : Nodes) (e : Edges) (batch : (⟨S100000, .i32⟩ : BufTy).Contents (Elt Ideal))
    (w10 : Weight) (b10 : Bias) (w20 : Weight) (b20 : Bias)
    (w11 : Weight) (b11 : Bias) (w21 : Weight) (b21 : Bias)
    (w12 : Weight) (b12 : Bias) (w22 : Weight) (b22 : Bias)
    (wl : FVec Ideal S128x2 .f32) (bl : FVec Ideal S2 .f32) : FVec Ideal S512x2 .f32 :=
  pool batch
    (conv (layer e (layer e x w10 b10 w20 b20) w11 b11 w21 b21)
      (agg e (layer e (layer e x w10 b10 w20 b20) w11 b11 w21 b21)) w12 b12 w22 b22)
    wl bl

omit [Cert.ReferenceIdeal.Facts] in
/-- Rectifying twice is rectifying once: max(max(a, 0), 0) = max(a, 0) on every extended real. -/
theorem relu_relu {s : Shape} (v : FVec Ideal s .f32) : relu (relu v) = relu v :=
  funext fun i => max_eq_left (le_max_right (v i) (Ideal.ofBits .f32 0x00000000#32))

omit [Cert.ReferenceIdeal.Facts] in
/-- ROW BLOCKS of an unrectified convolution: entry (off + p, q) of conv over the long matrices is entry (p, q) of conv
    over the blocks of their rows off … off + B. -/
theorem conv_rows {M B off : Nat} (hB : off + B ≤ M)
    (X A : FVec Ideal ⟨2, ![M, 128]⟩ .f32) (x a : FVec Ideal ⟨2, ![B, 128]⟩ .f32)
    (w1 : Weight) (b1 : Bias) (w2 : Weight) (b2 : Bias) (p : Fin B) (q : Fin 128)
    (hx : ∀ k : Fin 128, x (ix2 p k) = X (ix2 ⟨off + p.val, by have := p.isLt; omega⟩ k))
    (ha : ∀ k : Fin 128, a (ix2 p k) = A (ix2 ⟨off + p.val, by have := p.isLt; omega⟩ k)) :
    conv X A w1 b1 w2 b2 (ix2 ⟨off + p.val, by have := p.isLt; omega⟩ q) = conv x a w1 b1 w2 b2 (ix2 p q) := by
  refine affine_rows hB _ _ w2 b2 p q fun k => ?_
  show max (affine (addf x a) w1 b1 (ix2 p k)) _ = max (affine (addf X A) w1 b1 (ix2 ⟨off + p.val, by have := p.isLt; omega⟩ k)) _
  refine congrArg (max · _) (affine_rows hB _ _ w1 b1 p k fun j => ?_).symm
  show x (ix2 p j) + a (ix2 p j) = X (ix2 ⟨off + p.val, by have := p.isLt; omega⟩ j) + A (ix2 ⟨off + p.val, by have := p.isLt; omega⟩ j)
  rw [hx j, ha j]

end Cert.GinNet

end
-- ==== Proof.Body.lean ====
/-
  The layer kernel's arithmetic, block by block.

  At one grid point the kernel loads a block x of 5000 node rows, the matching block a of aggregated rows, both
  weights and both biases (each bias laid out as a row [1, 128]), and stores
      max(max((x + a) · w₁ + b₁, 0) · w₂ + b₂, 0)        (the first two launches)
      max((x + a) · w₁ + b₁, 0) · w₂ + b₂                 (the last launch)
  — each product accumulated from zero with its operands passed through a change of float format, the identity on
  the extended reals. So the stored block is the (rectified) convolution of the loaded blocks.
-/
import proofs.«154400_j58514634441241_1_alg».proof.Proof.Gen.KernelIdeal.Skeleton
import proofs.«154400_j58514634441241_1_alg».proof.Proof.Spec

noncomputable section

namespace Cert.KernelIdeal.Body

open Idealize.ShloMosaic Idealize.ShloMosaic.ValueIdx Cert.KernelIdeal Cert.KernelIdeal.Gen
open Cert.LibDenseLayer Cert.GinNet

/-- The kernel's product record is the plain [5000, 128] × [128, 128] one. -/
theorem dot_eq : dot_S5000x128_S128x128_S5000x128_1_0_0_1_n_n
    = Cert.LibPlainDot.dims (M := 5000) (K := 128) (N := 128) dot_S5000x128_S128x128_S5000x128_1_0_0_1_n_n_wf := rfl

/-- The first launch's stored block: the rectified convolution of the loaded blocks, the bias rows holding the bias vectors. -/
theorem pay0 (x a : Vec Ideal S5000x128 .f32) (w1 : Vec Ideal S128x128 .f32) (r1 : Vec Ideal S1x128 .f32)
    (w2 : Vec Ideal S128x128 .f32) (r2 : Vec Ideal S1x128 .f32) (b1 b2 : FVec Ideal S128 .f32)
    (h1 : ∀ q : Fin 128, r1 (ix2 (0 : Fin 1) q) = b1 (ix1 q)) (h2 : ∀ q : Fin 128, r2 (ix2 (0 : Fin 1) q) = b2 (ix1 q)) :
    k0_pay1 (F := Ideal) x a w1 r1 w2 r2 = relu (conv (M := 5000) x a w1 b1 w2 b2) := by
  unfold k0_pay1
  dsimp only
  rw [shapeCast_self, shapeCast_self, shapeCast_self, dot_eq]
  rw [matmul_bias dot_S5000x128_S128x128_S5000x128_1_0_0_1_n_n_wf bitsLt_bf16_f32 broadcasts_S1x128_S5000x128 (addf x a) w1 r1 b1 h1]
  rw [max_splat]
  rw [matmul_bias dot_S5000x128_S128x128_S5000x128_1_0_0_1_n_n_wf bitsLt_bf16_f32 broadcasts_S1x128_S5000x128 _ w2 r2 b2 h2]
  rw [max_splat]
  rfl

/-- The second launch's stored block: the same function. -/
theorem pay1 (x a : Vec Ideal S5000x128 .f32) (w1 : Vec Ideal S128x128 .f32) (r1 : Vec Ideal S1x128 .f32)
    (w2 : Vec Ideal S128x128 .f32) (r2 : Vec Ideal S1x128 .f32) (b1 b2 : FVec Ideal S128 .f32)
    (h1 : ∀ q : Fin 128, r1 (ix2 (0 : Fin 1) q) = b1 (ix1 q)) (h2 : ∀ q : Fin 128, r2 (ix2 (0 : Fin 1) q) = b2 (ix1 q)) :
    k1_pay1 (F := Ideal) x a w1 r1 w2 r2 = relu (conv (M := 5000) x a w1 b1 w2 b2) := by
  unfold k1_pay1
  dsimp only
  rw [shapeCast_self, shapeCast_self, shapeCast_self, shapeCast_self, dot_eq]
  rw [matmul_bias dot_S5000x128_S128x128_S5000x128_1_0_0_1_n_n_wf bitsLt_bf16_f32 broadcasts_S1x128_S5000x128 (addf x a) w1 r1 b1 h1]
  rw [max_splat]
  rw [matmul_bias dot_S5000x128_S128x128_S5000x128_1_0_0_1_n_n_wf bitsLt_bf16_f32 broadcasts_S1x128_S5000x128 _ w2 r2 b2 h2]
  rw [max_splat]
  rfl

/-- The last launch's stored block: the convolution without its closing rectifier. -/
theorem pay2 (x a : Vec Ideal S5000x128 .f32) (w1 : Vec Ideal S128x128 .f32) (r1 : Vec Ideal S1x128 .f32)
    (w2 : Vec Ideal S128x128 .f32) (r2 : Vec Ideal S1x128 .f32) (b1 b2 : FVec Ideal S128 .f32)
    (h1 : ∀ q : Fin 128, r1 (ix2 (0 : Fin 1) q) = b1 (ix1 q)) (h2 : ∀ q : Fin 128, r2 (ix2 (0 : Fin 1) q) = b2 (ix1 q)) :
    k2_pay1 (F := Ideal) x a w1 r1 w2 r2 = conv (M := 5000) x a w1 b1 w2 b2 := by
  unfold k2_pay1
  dsimp only
  rw [shapeCast_self, shapeCast_self, shapeCast_self, shapeCast_self, dot_eq]
  rw [matmul_bias dot_S5000x128_S128x128_S5000x128_1_0_0_1_n_n_wf bitsLt_bf16_f32 broadcasts_S1x128_S5000x128 (addf x a) w1 r1 b1 h1]
  rw [max_splat]
  rw [matmul_bias dot_S5000x128_S128x128_S5000x128_1_0_0_1_n_n_wf bitsLt_bf16_f32 broadcasts_S1x128_S5000x128 _ w2 r2 b2 h2]
  rfl

end Cert.KernelIdeal.Body

end
-- ==== Proof.Region.lean ====
/-
  What each launch of the layer kernel leaves in its output array.

  A launch runs the kernel at 20 grid points; point t loads rows t·5000 … t·5000 + 4999 of the node features and of
  the aggregated features, the whole of both weights and both bias rows, and writes its result back to the same rows
  of the output. Row r of a convolution depends on row r of its two operands alone, so what point t writes back is
  rows t·5000 … of the convolution of the WHOLE arrays; the 20 blocks tile the 100000 rows; hence the output array
  ends as the (rectified) convolution of the arrays the launch found. Stated for any contents V at the launch's entry.
-/
import proofs.«154400_j58514634441241_1_alg».proof.Proof.Gen.KernelIdeal.Frame
import proofs.«154400_j58514634441241_1_alg».proof.Proof.Body

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen
open Cert.LibDenseLayer Cert.GinNet
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## Launch 0 -/

/-- The printed index maps, decided over the 20 grid points: the node, aggregate and output windows sit at block row t,
    the weights and bias rows at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Rows t·5000 … t·5000 + 4999 of the node features are the block the point loads. -/
theorem blk0_x (c : Dev nD) (t : Fin cfg0.N) (p : Fin 5000) (k : Fin 128) :
    iblk0 V c 0 t (ix2 p k) = V c main_arg0 (ix2 ⟨t.val * 5000 + p.val, by have := t.isLt; have hN : cfg0.N = 20 := N_0; have := p.isLt; omega⟩ k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same rows of the aggregated features. -/
theorem blk0_a (c : Dev nD) (t : Fin cfg0.N) (p : Fin 5000) (k : Fin 128) :
    iblk0 V c 1 t (ix2 p k) = V c main_v13 (ix2 ⟨t.val * 5000 + p.val, by have := t.isLt; have hN : cfg0.N = 20 := N_0; have := p.isLt; omega⟩ k) := by
  obtain ⟨-, -, e0, e1, -⟩ := idx0 t
  show V c main_v13 (((cfg0.win 1).blk t).view.emb (ix2 p k)) = _
  refine congrArg (V c main_v13) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight's one block is the whole weight. -/
theorem blk0_w1 (c : Dev nD) (t : Fin cfg0.N) : iblk0 V c 2 t = V c main_arg3 := by
  obtain ⟨-, -, -, -, e0, e1, -⟩ := idx0 t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row's one block is the whole row. -/
theorem blk0_r1 (c : Dev nD) (t : Fin cfg0.N) : iblk0 V c 3 t = V c main_v14 := by
  obtain ⟨-, -, -, -, -, -, e0, e1, -⟩ := idx0 t
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight's one block is the whole weight. -/
theorem blk0_w2 (c : Dev nD) (t : Fin cfg0.N) : iblk0 V c 4 t = V c main_arg5 := by
  obtain ⟨-, -, -, -, -, -, -, -, e0, e1, -⟩ := idx0 t
  funext y
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row's one block is the whole row. -/
theorem blk0_r2 (c : Dev nD) (t : Fin cfg0.N) : iblk0 V c 5 t = V c main_v15 := by
  obtain ⟨-, -, -, -, -, -, -, -, -, -, e0, e1, -⟩ := idx0 t
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- WHAT POINT t WRITES BACK: rows t·5000 … of the layer of the arrays the launch finds, when the bias rows hold
    the bias vectors b1, b2. -/
theorem flushed0 (c : Dev nD) (t : Fin cfg0.N) (b1 b2 : FVec Ideal S128 .f32)
    (h1 : ∀ q : Fin 128, V c main_v14 (ix2 (0 : Fin 1) q) = b1 (ix1 q))
    (h2 : ∀ q : Fin 128, V c main_v15 (ix2 (0 : Fin 1) q) = b2 (ix1 q)) :
    (dat0 V c).flushed 6 t = ((cfg0.win 6).blk t).view.read (Elt Ideal)
      (relu (conv (M := 100000) (V c main_arg0) (V c main_v13) (V c main_arg3) b1 (V c main_arg5) b2)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  rw [blk0_w1, blk0_r1, blk0_w2, blk0_r2]
  refine (congrArg ((cfg0.win 6).cut (grid0.coords t))
    (Body.pay0 (iblk0 V c 0 t) (iblk0 V c 1 t) (V c main_arg3) (V c main_v14) (V c main_arg5) (V c main_v15) b1 b2 h1 h2)).trans ?_
  obtain ⟨-, -, -, -, -, -, -, -, -, -, -, -, e0, e1⟩ := idx0 t
  funext j
  obtain ⟨p, q, rfl⟩ : ∃ (p : Fin 5000) (q : Fin 128), j = ix2 p q := ⟨j 0, j 1, eq_ix2 j⟩
  have hemb : ((cfg0.win 6).blk t).view.emb (ix2 p q)
      = ix2 (⟨t.val * 5000 + p.val, by have := t.isLt; have hN : cfg0.N = 20 := N_0; have := p.isLt; omega⟩ : Fin 100000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  show (relu (conv (M := 5000) (iblk0 V c 0 t) (iblk0 V c 1 t) (V c main_arg3) b1 (V c main_arg5) b2)) (ix2 p q)
    = (relu (conv (M := 100000) (V c main_arg0) (V c main_v13) (V c main_arg3) b1 (V c main_arg5) b2)) (((cfg0.win 6).blk t).view.emb (ix2 p q))
  rw [hemb]
  exact (stack_rows (M := 100000) (B := 5000) (off := t.val * 5000) (by have := t.isLt; have hN : cfg0.N = 20 := N_0; omega)
    (V c main_arg0) (V c main_v13) (iblk0 V c 0 t) (iblk0 V c 1 t) (V c main_arg3) b1 (V c main_arg5) b2 p q
    (fun k => blk0_x V c t p k) (fun k => blk0_a V c t p k)).symm

/-- An index of the output array is in point t's block iff its row is among rows t·5000 … t·5000 + 4999. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The 20 blocks tile the 100000 rows: row r is in block r / 5000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by omega⟩, flush0_6 _, ?_⟩
  rw [mem_blk0]
  obtain ⟨-, -, -, -, -, -, -, -, -, -, -, -, e0, e1⟩ := idx0 ⟨(i 0).val / 5000, by omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- THE OUTPUT ARRAY after launch 0: the layer of the arrays the launch finds. -/
theorem out0 (c : Dev nD) (b1 b2 : FVec Ideal S128 .f32)
    (h1 : ∀ q : Fin 128, V c main_v14 (ix2 (0 : Fin 1) q) = b1 (ix1 q))
    (h2 : ∀ q : Fin 128, V c main_v15 (ix2 (0 : Fin 1) q) = b2 (ix1 q)) :
    (dat0 V c).arrAt 6 cfg0.N = relu (conv (M := 100000) (V c main_arg0) (V c main_v13) (V c main_arg3) b1 (V c main_arg5) b2) :=
  (dat0 V c).arrAt_eq_of_cover 6 _ (fun t _ => flushed0 V c t b1 b2 h1 h2) (cover0)

/-! ## Launch 1 -/

/-- The printed index maps, decided over the 20 grid points: the node, aggregate and output windows sit at block row t,
    the weights and bias rows at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Rows t·5000 … t·5000 + 4999 of the node features are the block the point loads. -/
theorem blk1_x (c : Dev nD) (t : Fin cfg1.N) (p : Fin 5000) (k : Fin 128) :
    iblk1 V c 0 t (ix2 p k) = V c main_v16 (ix2 ⟨t.val * 5000 + p.val, by have := t.isLt; have hN : cfg1.N = 20 := N_1; have := p.isLt; omega⟩ k) := by
  obtain ⟨e0, e1, -⟩ := idx1 t
  show V c main_v16 (((cfg1.win 0).blk t).view.emb (ix2 p k)) = _
  refine congrArg (V c main_v16) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The same rows of the aggregated features. -/
theorem blk1_a (c : Dev nD) (t : Fin cfg1.N) (p : Fin 5000) (k : Fin 128) :
    iblk1 V c 1 t (ix2 p k) = V c main_v26 (ix2 ⟨t.val * 5000 + p.val, by have := t.isLt; have hN : cfg1.N = 20 := N_1; have := p.isLt; omega⟩ k) := by
  obtain ⟨-, -, e0, e1, -⟩ := idx1 t
  show V c main_v26 (((cfg1.win 1).blk t).view.emb (ix2 p k)) = _
  refine congrArg (V c main_v26) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight's one block is the whole weight. -/
theorem blk1_w1 (c : Dev nD) (t : Fin cfg1.N) : iblk1 V c 2 t = V c main_arg7 := by
  obtain ⟨-, -, -, -, e0, e1, -⟩ := idx1 t
  funext y
  show V c main_arg7 (((cfg1.win 2).blk t).view.emb y) = V c main_arg7 y
  refine congrArg (V c main_arg7) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row's one block is the whole row. -/
theorem blk1_r1 (c : Dev nD) (t : Fin cfg1.N) : iblk1 V c 3 t = V c main_v27 := by
  obtain ⟨-, -, -, -, -, -, e0, e1, -⟩ := idx1 t
  funext y
  show V c main_v27 (((cfg1.win 3).blk t).view.emb y) = V c main_v27 y
  refine congrArg (V c main_v27) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight's one block is the whole weight. -/
theorem blk1_w2 (c : Dev nD) (t : Fin cfg1.N) : iblk1 V c 4 t = V c main_arg9 := by
  obtain ⟨-, -, -, -, -, -, -, -, e0, e1, -⟩ := idx1 t
  funext y
  show V c main_arg9 (((cfg1.win 4).blk t).view.emb y) = V c main_arg9 y
  refine congrArg (V c main_arg9) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row's one block is the whole row. -/
theorem blk1_r2 (c : Dev nD) (t : Fin cfg1.N) : iblk1 V c 5 t = V c main_v28 := by
  obtain ⟨-, -, -, -, -, -, -, -, -, -, e0, e1, -⟩ := idx1 t
  funext y
  show V c main_v28 (((cfg1.win 5).blk t).view.emb y) = V c main_v28 y
  refine congrArg (V c main_v28) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- WHAT POINT t WRITES BACK: rows t·5000 … of the layer of the arrays the launch finds, when the bias rows hold
    the bias vectors b1, b2. -/
theorem flushed1 (c : Dev nD) (t : Fin cfg1.N) (b1 b2 : FVec Ideal S128 .f32)
    (h1 : ∀ q : Fin 128, V c main_v27 (ix2 (0 : Fin 1) q) = b1 (ix1 q))
    (h2 : ∀ q : Fin 128, V c main_v28 (ix2 (0 : Fin 1) q) = b2 (ix1 q)) :
    (dat1 V c).flushed 6 t = ((cfg1.win 6).blk t).view.read (Elt Ideal)
      (relu (conv (M := 100000) (V c main_v16) (V c main_v26) (V c main_arg7) b1 (V c main_arg9) b2)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  rw [blk1_w1, blk1_r1, blk1_w2, blk1_r2]
  refine (congrArg ((cfg1.win 6).cut (grid1.coords t))
    (Body.pay1 (iblk1 V c 0 t) (iblk1 V c 1 t) (V c main_arg7) (V c main_v27) (V c main_arg9) (V c main_v28) b1 b2 h1 h2)).trans ?_
  obtain ⟨-, -, -, -, -, -, -, -, -, -, -, -, e0, e1⟩ := idx1 t
  funext j
  obtain ⟨p, q, rfl⟩ : ∃ (p : Fin 5000) (q : Fin 128), j = ix2 p q := ⟨j 0, j 1, eq_ix2 j⟩
  have hemb : ((cfg1.win 6).blk t).view.emb (ix2 p q)
      = ix2 (⟨t.val * 5000 + p.val, by have := t.isLt; have hN : cfg1.N = 20 := N_1; have := p.isLt; omega⟩ : Fin 100000) q :=
    funext fun a => Fin.ext (by
      match a with
      | ⟨0, _⟩ => show win1_6.index t (0 : Fin 2) * 5000 + 1 * p.val = t.val * 5000 + p.val; omega
      | ⟨1, _⟩ => show win1_6.index t (1 : Fin 2) * 128 + 1 * q.val = q.val; omega)
  show (relu (conv (M := 5000) (iblk1 V c 0 t) (iblk1 V c 1 t) (V c main_arg7) b1 (V c main_arg9) b2)) (ix2 p q)
    = (relu (conv (M := 100000) (V c main_v16) (V c main_v26) (V c main_arg7) b1 (V c main_arg9) b2)) (((cfg1.win 6).blk t).view.emb (ix2 p q))
  rw [hemb]
  exact (stack_rows (M := 100000) (B := 5000) (off := t.val * 5000) (by have := t.isLt; have hN : cfg1.N = 20 := N_1; omega)
    (V c main_v16) (V c main_v26) (iblk1 V c 0 t) (iblk1 V c 1 t) (V c main_arg7) b1 (V c main_arg9) b2 p q
    (fun k => blk1_x V c t p k) (fun k => blk1_a V c t p k)).symm

/-- An index of the output array is in point t's block iff its row is among rows t·5000 … t·5000 + 4999. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The 20 blocks tile the 100000 rows: row r is in block r / 5000. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  refine ⟨⟨(i 0).val / 5000, by omega⟩, flush1_6 _, ?_⟩
  rw [mem_blk1]
  obtain ⟨-, -, -, -, -, -, -, -, -, -, -, -, e0, e1⟩ := idx1 ⟨(i 0).val / 5000, by omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- THE OUTPUT ARRAY after launch 1: the layer of the arrays the launch finds. -/
theorem out1 (c : Dev nD) (b1 b2 : FVec Ideal S128 .f32)
    (h1 : ∀ q : Fin 128, V c main_v27 (ix2 (0 : Fin 1) q) = b1 (ix1 q))
    (h2 : ∀ q : Fin 128, V c main_v28 (ix2 (0 : Fin 1) q) = b2 (ix1 q)) :
    (dat1 V c).arrAt 6 cfg1.N = relu (conv (M := 100000) (V c main_v16) (V c main_v26) (V c main_arg7) b1 (V c main_arg9) b2) :=
  (dat1 V c).arrAt_eq_of_cover 6 _ (fun t _ => flushed1 V c t b1 b2 h1 h2) (cover1)

/-! ## Launch 2 -/

/-- The printed index maps, decided over the 20 grid points: the node, aggregate and output windows sit at block row t,
    the weights and bias rows at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Rows t·5000 … t·5000 + 4999 of the node features are the block the point loads. -/
theorem blk2_x (c : Dev nD) (t : Fin cfg2.N) (p : Fin 5000) (k : Fin 128) :
    iblk2 V c 0 t (ix2 p k) = V c main_v29 (ix2 ⟨t.val * 5000 + p.val, by have := t.isLt; have hN : cfg2.N = 20 := N_2; have := p.isLt; omega⟩ k) := by
  obtain ⟨e0, e1, -⟩ := idx2 t
  show V c main_v29 (((cfg2.win 0).blk t).view.emb (ix2 p k)) = _
  refine congrArg (V c main_v29) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The same rows of the aggregated features. -/
theorem blk2_a (c : Dev nD) (t : Fin cfg2.N) (p : Fin 5000) (k : Fin 128) :
    iblk2 V c 1 t (ix2 p k) = V c main_v39 (ix2 ⟨t.val * 5000 + p.val, by have := t.isLt; have hN : cfg2.N = 20 := N_2; have := p.isLt; omega⟩ k) := by
  obtain ⟨-, -, e0, e1, -⟩ := idx2 t
  show V c main_v39 (((cfg2.win 1).blk t).view.emb (ix2 p k)) = _
  refine congrArg (V c main_v39) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- The first weight's one block is the whole weight. -/
theorem blk2_w1 (c : Dev nD) (t : Fin cfg2.N) : iblk2 V c 2 t = V c main_arg11 := by
  obtain ⟨-, -, -, -, e0, e1, -⟩ := idx2 t
  funext y
  show V c main_arg11 (((cfg2.win 2).blk t).view.emb y) = V c main_arg11 y
  refine congrArg (V c main_arg11) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias row's one block is the whole row. -/
theorem blk2_r1 (c : Dev nD) (t : Fin cfg2.N) : iblk2 V c 3 t = V c main_v40 := by
  obtain ⟨-, -, -, -, -, -, e0, e1, -⟩ := idx2 t
  funext y
  show V c main_v40 (((cfg2.win 3).blk t).view.emb y) = V c main_v40 y
  refine congrArg (V c main_v40) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The second weight's one block is the whole weight. -/
theorem blk2_w2 (c : Dev nD) (t : Fin cfg2.N) : iblk2 V c 4 t = V c main_arg13 := by
  obtain ⟨-, -, -, -, -, -, -, -, e0, e1, -⟩ := idx2 t
  funext y
  show V c main_arg13 (((cfg2.win 4).blk t).view.emb y) = V c main_arg13 y
  refine congrArg (V c main_arg13) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The second bias row's one block is the whole row. -/
theorem blk2_r2 (c : Dev nD) (t : Fin cfg2.N) : iblk2 V c 5 t = V c main_v41 := by
  obtain ⟨-, -, -, -, -, -, -, -, -, -, e0, e1, -⟩ := idx2 t
  funext y
  show V c main_v41 (((cfg2.win 5).blk t).view.emb y) = V c main_v41 y
  refine congrArg (V c main_v41) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- WHAT POINT t WRITES BACK: rows t·5000 … of the layer of the arrays the launch finds, when the bias rows hold
    the bias vectors b1, b2. -/
theorem flushed2 (c : Dev nD) (t : Fin cfg2.N) (b1 b2 : FVec Ideal S128 .f32)
    (h1 : ∀ q : Fin 128, V c main_v40 (ix2 (0 : Fin 1) q) = b1 (ix1 q))
    (h2 : ∀ q : Fin 128, V c main_v41 (ix2 (0 : Fin 1) q) = b2 (ix1 q)) :
    (dat2 V c).flushed 6 t = ((cfg2.win 6).blk t).view.read (Elt Ideal)
      (conv (M := 100000) (V c main_v29) (V c main_v39) (V c main_arg11) b1 (V c main_arg13) b2) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  rw [blk2_w1, blk2_r1, blk2_w2, blk2_r2]
  refine (congrArg ((cfg2.win 6).cut (grid2.coords t))
    (Body.pay2 (iblk2 V c 0 t) (iblk2 V c 1 t) (V c main_arg11) (V c main_v40) (V c main_arg13) (V c main_v41) b1 b2 h1 h2)).trans ?_
  obtain ⟨-, -, -, -, -, -, -, -, -, -, -, -, e0, e1⟩ := idx2 t
  funext j
  obtain ⟨p, q, rfl⟩ : ∃ (p : Fin 5000) (q : Fin 128), j = ix2 p q := ⟨j 0, j 1, eq_ix2 j⟩
  have hemb : ((cfg2.win 6).blk t).view.emb (ix2 p q)
      = ix2 (⟨t.val * 5000 + p.val, by have := t.isLt; have hN : cfg2.N = 20 := N_2; have := p.isLt; omega⟩ : Fin 100000) q :=
    funext fun a => Fin.ext (by
      match a with
      | ⟨0, _⟩ => show win2_6.index t (0 : Fin 2) * 5000 + 1 * p.val = t.val * 5000 + p.val; omega
      | ⟨1, _⟩ => show win2_6.index t (1 : Fin 2) * 128 + 1 * q.val = q.val; omega)
  show (conv (M := 5000) (iblk2 V c 0 t) (iblk2 V c 1 t) (V c main_arg11) b1 (V c main_arg13) b2) (ix2 p q)
    = (conv (M := 100000) (V c main_v29) (V c main_v39) (V c main_arg11) b1 (V c main_arg13) b2) (((cfg2.win 6).blk t).view.emb (ix2 p q))
  rw [hemb]
  exact (conv_rows (M := 100000) (B := 5000) (off := t.val * 5000) (by have := t.isLt; have hN : cfg2.N = 20 := N_2; omega)
    (V c main_v29) (V c main_v39) (iblk2 V c 0 t) (iblk2 V c 1 t) (V c main_arg11) b1 (V c main_arg13) b2 p q
    (fun k => blk2_x V c t p k) (fun k => blk2_a V c t p k)).symm

/-- An index of the output array is in point t's block iff its row is among rows t·5000 … t·5000 + 4999. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v42).slice (win2_6.rect t)).set ↔ _
  rw [View.set_slice_whole, Rect.mem_set_unit]
  exact Iff.rfl

/-- The 20 blocks tile the 100000 rows: row r is in block r / 5000. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  refine ⟨⟨(i 0).val / 5000, by omega⟩, flush2_6 _, ?_⟩
  rw [mem_blk2]
  obtain ⟨-, -, -, -, -, -, -, -, -, -, -, -, e0, e1⟩ := idx2 ⟨(i 0).val / 5000, by omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e1]; omega

/-- THE OUTPUT ARRAY after launch 2: the layer of the arrays the launch finds. -/
theorem out2 (c : Dev nD) (b1 b2 : FVec Ideal S128 .f32)
    (h1 : ∀ q : Fin 128, V c main_v40 (ix2 (0 : Fin 1) q) = b1 (ix1 q))
    (h2 : ∀ q : Fin 128, V c main_v41 (ix2 (0 : Fin 1) q) = b2 (ix1 q)) :
    (dat2 V c).arrAt 6 cfg2.N = conv (M := 100000) (V c main_v29) (V c main_v39) (V c main_arg11) b1 (V c main_arg13) b2 :=
  (dat2 V c).arrAt_eq_of_cover 6 _ (fun t _ => flushed2 V c t b1 b2 h1 h2) (cover2)

end Cert.KernelIdeal.Region

end
-- ==== Proof.FoldA.lean ====
/-
  The kernel program's buffers, boundary by boundary: up to the first launch's output.

  The buffer contents at the program's boundaries are a fold from the launch memory. The first stretch of host
  operations computes, from the arguments alone, the edge sources and targets, the aggregation of the input
  features and the two bias rows; nothing writes an argument. The first launch then leaves the first hidden
  features max(conv₀ x, 0) in its output array and every other buffer as it was.
-/
import proofs.«154400_j58514634441241_1_alg».proof.Proof.Gen.KernelIdeal.Frame
import proofs.«154400_j58514634441241_1_alg».proof.Proof.Gen.ReferenceIdeal
import proofs.«154400_j58514634441241_1_alg».proof.Proof.Region
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.LibDenseLayer Cert.GinNet

variable (m : (ℓ : Loc nD τ sig) → Buf (Elt Ideal) ℓ) (ρ : Dev nD → PrngReg) (c : Dev nD)

theorem W1_arg0 : W1 m ρ c (Proc.devRef .tc main_arg0) = (m ((c.tc : Thread nD τ).loc main_arg0)) := by
  show StableHlo.after hostOps0 (W0 m ρ c) (Proc.devRef .tc main_arg0) = _
  dsimp only [hostOps0]
  after_results
  all_goals rfl

theorem W1_arg3 : W1 m ρ c (Proc.devRef .tc main_arg3) = (m ((c.tc : Thread nD τ).loc main_arg3)) := by
  show StableHlo.after hostOps0 (W0 m ρ c) (Proc.devRef .tc main_arg3) = _
  dsimp only [hostOps0]
  after_results
  all_goals rfl

theorem W1_arg5 : W1 m ρ c (Proc.devRef .tc main_arg5) = (m ((c.tc : Thread nD τ).loc main_arg5)) := by
  show StableHlo.after hostOps0 (W0 m ρ c) (Proc.devRef .tc main_arg5) = _
  dsimp only [hostOps0]
  after_results
  all_goals rfl

theorem W1_arg7 : W1 m ρ c (Proc.devRef .tc main_arg7) = (m ((c.tc : Thread nD τ).loc main_arg7)) := by
  show StableHlo.after hostOps0 (W0 m ρ c) (Proc.devRef .tc main_arg7) = _
  dsimp only [hostOps0]
  after_results
  all_goals rfl

theorem W1_arg8 : W1 m ρ c (Proc.devRef .tc main_arg8) = (m ((c.tc : Thread nD τ).loc main_arg8)) := by
  show StableHlo.after hostOps0 (W0 m ρ c) (Proc.devRef .tc main_arg8) = _
  dsimp only [hostOps0]
  after_results
  all_goals rfl

theorem W1_arg9 : W1 m ρ c (Proc.devRef .tc main_arg9) = (m ((c.tc : Thread nD τ).loc main_arg9)) := by
  show StableHlo.after hostOps0 (W0 m ρ c) (Proc.devRef .tc main_arg9) = _
  dsimp only [hostOps0]
  after_results
  all_goals rfl

theorem W1_arg10 : W1 m ρ c (Proc.devRef .tc main_arg10) = (m ((c.tc : Thread nD τ).loc main_arg10)) := by
  show StableHlo.after hostOps0 (W0 m ρ c) (Proc.devRef .tc main_arg10) = _
  dsimp only [hostOps0]
  after_results
  all_goals rfl

theorem W1_arg11 : W1 m ρ c (Proc.devRef .tc main_arg11) = (m ((c.tc : Thread nD τ).loc main_arg11)) := by
  show StableHlo.after hostOps0 (W0 m ρ c) (Proc.devRef .tc main_arg11) = _
  dsimp only [hostOps0]
  after_results
  all_goals rfl

theorem W1_arg12 : W1 m ρ c (Proc.devRef .tc main_arg12) = (m ((c.tc : Thread nD τ).loc main_arg12)) := by
  show StableHlo.after hostOps0 (W0 m ρ c) (Proc.devRef .tc main_arg12) = _
  dsimp only [hostOps0]
  after_results
  all_goals rfl

theorem W1_arg13 : W1 m ρ c (Proc.devRef .tc main_arg13) = (m ((c.tc : Thread nD τ).loc main_arg13)) := by
  show StableHlo.after hostOps0 (W0 m ρ c) (Proc.devRef .tc main_arg13) = _
  dsimp only [hostOps0]
  after_results
  all_goals rfl

theorem W1_arg14 : W1 m ρ c (Proc.devRef .tc main_arg14) = (m ((c.tc : Thread nD τ).loc main_arg14)) := by
  show StableHlo.after hostOps0 (W0 m ρ c) (Proc.devRef .tc main_arg14) = _
  dsimp only [hostOps0]
  after_results
  all_goals rfl

theorem W1_arg2 : W1 m ρ c (Proc.devRef .tc main_arg2) = (m ((c.tc : Thread nD τ).loc main_arg2)) := by
  show StableHlo.after hostOps0 (W0 m ρ c) (Proc.devRef .tc main_arg2) = _
  dsimp only [hostOps0]
  after_results
  all_goals rfl

theorem W1_arg15 : W1 m ρ c (Proc.devRef .tc main_arg15) = (m ((c.tc : Thread nD τ).loc main_arg15)) := by
  show StableHlo.after hostOps0 (W0 m ρ c) (Proc.devRef .tc main_arg15) = _
  dsimp only [hostOps0]
  after_results
  all_goals rfl

theorem W1_arg16 : W1 m ρ c (Proc.devRef .tc main_arg16) = (m ((c.tc : Thread nD τ).loc main_arg16)) := by
  show StableHlo.after hostOps0 (W0 m ρ c) (Proc.devRef .tc main_arg16) = _
  dsimp only [hostOps0]
  after_results
  all_goals rfl

/-- The edge sources as the first stretch leaves them: row 0 of the edge list, flattened. -/
theorem W1_v1 : W1 m ρ c (Proc.devRef .tc main_v1) = srcVec (m ((c.tc : Thread nD τ).loc main_arg1)) := by
  show StableHlo.after hostOps0 (W0 m ρ c) (Proc.devRef .tc main_v1) = _
  dsimp only [hostOps0]
  after_results
  all_goals rfl

/-- The edge targets: row 1 of the edge list, flattened. -/
theorem W1_v3 : W1 m ρ c (Proc.devRef .tc main_v3) = dstVec (m ((c.tc : Thread nD τ).loc main_arg1)) := by
  show StableHlo.after hostOps0 (W0 m ρ c) (Proc.devRef .tc main_v3) = _
  dsimp only [hostOps0]
  after_results
  all_goals rfl

/-- The aggregation of the input features: the gather of the source rows scattered-added at the target rows. -/
theorem W1_v13 : W1 m ρ c (Proc.devRef .tc main_v13) = agg (m ((c.tc : Thread nD τ).loc main_arg1)) (m ((c.tc : Thread nD τ).loc main_arg0)) := by
  show StableHlo.after hostOps0 (W0 m ρ c) (Proc.devRef .tc main_v13) = _
  dsimp only [hostOps0]
  after_results_simp
  all_goals rfl

/-- The first bias of the first layer, laid out as a row. -/
theorem W1_v14 : W1 m ρ c (Proc.devRef .tc main_v14) = (shapeCast S1x128 (m ((c.tc : Thread nD τ).loc main_arg4)) shapeCasts_S128_S1x128) := by
  show StableHlo.after hostOps0 (W0 m ρ c) (Proc.devRef .tc main_v14) = _
  dsimp only [hostOps0]
  after_results
  all_goals rfl

/-- Its second bias, laid out as a row. -/
theorem W1_v15 : W1 m ρ c (Proc.devRef .tc main_v15) = (shapeCast S1x128 (m ((c.tc : Thread nD τ).loc main_arg6)) shapeCasts_S128_S1x128) := by
  show StableHlo.after hostOps0 (W0 m ρ c) (Proc.devRef .tc main_v15) = _
  dsimp only [hostOps0]
  after_results
  all_goals rfl

/-- Launch 0 leaves the layer of what it finds: the first hidden features. -/
theorem W2_v16 : W2 m ρ c (Proc.devRef .tc main_v16) = (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := by
  refine (W2_arr m ρ c 6).trans ?_
  refine (Region.out0 (V1 m ρ) c (m ((c.tc : Thread nD τ).loc main_arg4)) (m ((c.tc : Thread nD τ).loc main_arg6)) (fun q => ?_) (fun q => ?_)).trans ?_
  · show W1 m ρ c (Proc.devRef .tc main_v14) (ix2 (0 : Fin 1) q) = _
    rw [W1_v14 m ρ c]
    exact shapeCast_a_1a_apply _ _ (0 : Fin 1) q
  · show W1 m ρ c (Proc.devRef .tc main_v15) (ix2 (0 : Fin 1) q) = _
    rw [W1_v15 m ρ c]
    exact shapeCast_a_1a_apply _ _ (0 : Fin 1) q
  · show relu (conv (M := 100000) (W1 m ρ c (Proc.devRef .tc main_arg0)) (W1 m ρ c (Proc.devRef .tc main_v13)) (W1 m ρ c (Proc.devRef .tc main_arg3)) (m ((c.tc : Thread nD τ).loc main_arg4)) (W1 m ρ c (Proc.devRef .tc main_arg5)) (m ((c.tc : Thread nD τ).loc main_arg6))) = _
    rw [W1_arg0 m ρ c, W1_v13 m ρ c, W1_arg3 m ρ c, W1_arg5 m ρ c]
    rfl

theorem W2_v1 : W2 m ρ c (Proc.devRef .tc main_v1) = srcVec (m ((c.tc : Thread nD τ).loc main_arg1)) :=
  (W2_of_ne m ρ c main_v1 (by decide)).trans (W1_v1 m ρ c)

theorem W2_v3 : W2 m ρ c (Proc.devRef .tc main_v3) = dstVec (m ((c.tc : Thread nD τ).loc main_arg1)) :=
  (W2_of_ne m ρ c main_v3 (by decide)).trans (W1_v3 m ρ c)

theorem W2_arg7 : W2 m ρ c (Proc.devRef .tc main_arg7) = (m ((c.tc : Thread nD τ).loc main_arg7)) :=
  (W2_of_ne m ρ c main_arg7 (by decide)).trans (W1_arg7 m ρ c)

theorem W2_arg8 : W2 m ρ c (Proc.devRef .tc main_arg8) = (m ((c.tc : Thread nD τ).loc main_arg8)) :=
  (W2_of_ne m ρ c main_arg8 (by decide)).trans (W1_arg8 m ρ c)

theorem W2_arg9 : W2 m ρ c (Proc.devRef .tc main_arg9) = (m ((c.tc : Thread nD τ).loc main_arg9)) :=
  (W2_of_ne m ρ c main_arg9 (by decide)).trans (W1_arg9 m ρ c)

theorem W2_arg10 : W2 m ρ c (Proc.devRef .tc main_arg10) = (m ((c.tc : Thread nD τ).loc main_arg10)) :=
  (W2_of_ne m ρ c main_arg10 (by decide)).trans (W1_arg10 m ρ c)

theorem W2_arg11 : W2 m ρ c (Proc.devRef .tc main_arg11) = (m ((c.tc : Thread nD τ).loc main_arg11)) :=
  (W2_of_ne m ρ c main_arg11 (by decide)).trans (W1_arg11 m ρ c)

theorem W2_arg12 : W2 m ρ c (Proc.devRef .tc main_arg12) = (m ((c.tc : Thread nD τ).loc main_arg12)) :=
  (W2_of_ne m ρ c main_arg12 (by decide)).trans (W1_arg12 m ρ c)

theorem W2_arg13 : W2 m ρ c (Proc.devRef .tc main_arg13) = (m ((c.tc : Thread nD τ).loc main_arg13)) :=
  (W2_of_ne m ρ c main_arg13 (by decide)).trans (W1_arg13 m ρ c)

theorem W2_arg14 : W2 m ρ c (Proc.devRef .tc main_arg14) = (m ((c.tc : Thread nD τ).loc main_arg14)) :=
  (W2_of_ne m ρ c main_arg14 (by decide)).trans (W1_arg14 m ρ c)

theorem W2_arg2 : W2 m ρ c (Proc.devRef .tc main_arg2) = (m ((c.tc : Thread nD τ).loc main_arg2)) :=
  (W2_of_ne m ρ c main_arg2 (by decide)).trans (W1_arg2 m ρ c)

theorem W2_arg15 : W2 m ρ c (Proc.devRef .tc main_arg15) = (m ((c.tc : Thread nD τ).loc main_arg15)) :=
  (W2_of_ne m ρ c main_arg15 (by decide)).trans (W1_arg15 m ρ c)

theorem W2_arg16 : W2 m ρ c (Proc.devRef .tc main_arg16) = (m ((c.tc : Thread nD τ).loc main_arg16)) :=
  (W2_of_ne m ρ c main_arg16 (by decide)).trans (W1_arg16 m ρ c)

end Cert.KernelIdeal.Fold

end
-- ==== Proof.FoldB.lean ====
/-
  The kernel program's buffers: from the first launch's output to the second's.

  The second stretch aggregates the first hidden features with the same sources and targets and lays out the
  second layer's biases; the second launch leaves the second hidden features max(conv₁ h₁, 0).
-/
import proofs.«154400_j58514634441241_1_alg».proof.Proof.FoldA

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.LibDenseLayer Cert.GinNet

variable (m : (ℓ : Loc nD τ sig) → Buf (Elt Ideal) ℓ) (ρ : Dev nD → PrngReg) (c : Dev nD)

theorem W3_v16 : W3 m ρ c (Proc.devRef .tc main_v16) = (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := by
  show StableHlo.after hostOps1 (W2 m ρ c) (Proc.devRef .tc main_v16) = _
  dsimp only [hostOps1]
  after_results
  rw [W2_v16 m ρ c]
  all_goals rfl

/-- The aggregation of the first hidden features: the same gather and scatter-add, of the first launch's output. -/
theorem W3_v26 : W3 m ρ c (Proc.devRef .tc main_v26) = agg (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := by
  show StableHlo.after hostOps1 (W2 m ρ c) (Proc.devRef .tc main_v26) = _
  dsimp only [hostOps1]
  after_results_simp
  rw [W2_v16 m ρ c, W2_v1 m ρ c, W2_v3 m ρ c]
  all_goals rfl

theorem W3_arg7 : W3 m ρ c (Proc.devRef .tc main_arg7) = (m ((c.tc : Thread nD τ).loc main_arg7)) := by
  show StableHlo.after hostOps1 (W2 m ρ c) (Proc.devRef .tc main_arg7) = _
  dsimp only [hostOps1]
  after_results
  rw [W2_arg7 m ρ c]
  all_goals rfl

theorem W3_v27 : W3 m ρ c (Proc.devRef .tc main_v27) = (shapeCast S1x128 (m ((c.tc : Thread nD τ).loc main_arg8)) shapeCasts_S128_S1x128) := by
  show StableHlo.after hostOps1 (W2 m ρ c) (Proc.devRef .tc main_v27) = _
  dsimp only [hostOps1]
  after_results
  rw [W2_arg8 m ρ c]
  all_goals rfl

theorem W3_arg9 : W3 m ρ c (Proc.devRef .tc main_arg9) = (m ((c.tc : Thread nD τ).loc main_arg9)) := by
  show StableHlo.after hostOps1 (W2 m ρ c) (Proc.devRef .tc main_arg9) = _
  dsimp only [hostOps1]
  after_results
  rw [W2_arg9 m ρ c]
  all_goals rfl

theorem W3_v28 : W3 m ρ c (Proc.devRef .tc main_v28) = (shapeCast S1x128 (m ((c.tc : Thread nD τ).loc main_arg10)) shapeCasts_S128_S1x128) := by
  show StableHlo.after hostOps1 (W2 m ρ c) (Proc.devRef .tc main_v28) = _
  dsimp only [hostOps1]
  after_results
  rw [W2_arg10 m ρ c]
  all_goals rfl

theorem W3_v1 : W3 m ρ c (Proc.devRef .tc main_v1) = srcVec (m ((c.tc : Thread nD τ).loc main_arg1)) := by
  show StableHlo.after hostOps1 (W2 m ρ c) (Proc.devRef .tc main_v1) = _
  dsimp only [hostOps1]
  after_results
  rw [W2_v1 m ρ c]
  all_goals rfl

theorem W3_v3 : W3 m ρ c (Proc.devRef .tc main_v3) = dstVec (m ((c.tc : Thread nD τ).loc main_arg1)) := by
  show StableHlo.after hostOps1 (W2 m ρ c) (Proc.devRef .tc main_v3) = _
  dsimp only [hostOps1]
  after_results
  rw [W2_v3 m ρ c]
  all_goals rfl

theorem W3_arg11 : W3 m ρ c (Proc.devRef .tc main_arg11) = (m ((c.tc : Thread nD τ).loc main_arg11)) := by
  show StableHlo.after hostOps1 (W2 m ρ c) (Proc.devRef .tc main_arg11) = _
  dsimp only [hostOps1]
  after_results
  rw [W2_arg11 m ρ c]
  all_goals rfl

theorem W3_arg12 : W3 m ρ c (Proc.devRef .tc main_arg12) = (m ((c.tc : Thread nD τ).loc main_arg12)) := by
  show StableHlo.after hostOps1 (W2 m ρ c) (Proc.devRef .tc main_arg12) = _
  dsimp only [hostOps1]
  after_results
  rw [W2_arg12 m ρ c]
  all_goals rfl

theorem W3_arg13 : W3 m ρ c (Proc.devRef .tc main_arg13) = (m ((c.tc : Thread nD τ).loc main_arg13)) := by
  show StableHlo.after hostOps1 (W2 m ρ c) (Proc.devRef .tc main_arg13) = _
  dsimp only [hostOps1]
  after_results
  rw [W2_arg13 m ρ c]
  all_goals rfl

theorem W3_arg14 : W3 m ρ c (Proc.devRef .tc main_arg14) = (m ((c.tc : Thread nD τ).loc main_arg14)) := by
  show StableHlo.after hostOps1 (W2 m ρ c) (Proc.devRef .tc main_arg14) = _
  dsimp only [hostOps1]
  after_results
  rw [W2_arg14 m ρ c]
  all_goals rfl

theorem W3_arg2 : W3 m ρ c (Proc.devRef .tc main_arg2) = (m ((c.tc : Thread nD τ).loc main_arg2)) := by
  show StableHlo.after hostOps1 (W2 m ρ c) (Proc.devRef .tc main_arg2) = _
  dsimp only [hostOps1]
  after_results
  rw [W2_arg2 m ρ c]
  all_goals rfl

theorem W3_arg15 : W3 m ρ c (Proc.devRef .tc main_arg15) = (m ((c.tc : Thread nD τ).loc main_arg15)) := by
  show StableHlo.after hostOps1 (W2 m ρ c) (Proc.devRef .tc main_arg15) = _
  dsimp only [hostOps1]
  after_results
  rw [W2_arg15 m ρ c]
  all_goals rfl

theorem W3_arg16 : W3 m ρ c (Proc.devRef .tc main_arg16) = (m ((c.tc : Thread nD τ).loc main_arg16)) := by
  show StableHlo.after hostOps1 (W2 m ρ c) (Proc.devRef .tc main_arg16) = _
  dsimp only [hostOps1]
  after_results
  rw [W2_arg16 m ρ c]
  all_goals rfl

/-- Launch 1 leaves the layer of what it finds: the second hidden features. -/
theorem W4_v29 : W4 m ρ c (Proc.devRef .tc main_v29) = (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) := by
  refine (W4_arr m ρ c 6).trans ?_
  refine (Region.out1 (V3 m ρ) c (m ((c.tc : Thread nD τ).loc main_arg8)) (m ((c.tc : Thread nD τ).loc main_arg10)) (fun q => ?_) (fun q => ?_)).trans ?_
  · show W3 m ρ c (Proc.devRef .tc main_v27) (ix2 (0 : Fin 1) q) = _
    rw [W3_v27 m ρ c]
    exact shapeCast_a_1a_apply _ _ (0 : Fin 1) q
  · show W3 m ρ c (Proc.devRef .tc main_v28) (ix2 (0 : Fin 1) q) = _
    rw [W3_v28 m ρ c]
    exact shapeCast_a_1a_apply _ _ (0 : Fin 1) q
  · show relu (conv (M := 100000) (W3 m ρ c (Proc.devRef .tc main_v16)) (W3 m ρ c (Proc.devRef .tc main_v26)) (W3 m ρ c (Proc.devRef .tc main_arg7)) (m ((c.tc : Thread nD τ).loc main_arg8)) (W3 m ρ c (Proc.devRef .tc main_arg9)) (m ((c.tc : Thread nD τ).loc main_arg10))) = _
    rw [W3_v16 m ρ c, W3_v26 m ρ c, W3_arg7 m ρ c, W3_arg9 m ρ c]
    rfl

theorem W4_v1 : W4 m ρ c (Proc.devRef .tc main_v1) = srcVec (m ((c.tc : Thread nD τ).loc main_arg1)) :=
  (W4_of_ne m ρ c main_v1 (by decide)).trans (W3_v1 m ρ c)

theorem W4_v3 : W4 m ρ c (Proc.devRef .tc main_v3) = dstVec (m ((c.tc : Thread nD τ).loc main_arg1)) :=
  (W4_of_ne m ρ c main_v3 (by decide)).trans (W3_v3 m ρ c)

theorem W4_arg11 : W4 m ρ c (Proc.devRef .tc main_arg11) = (m ((c.tc : Thread nD τ).loc main_arg11)) :=
  (W4_of_ne m ρ c main_arg11 (by decide)).trans (W3_arg11 m ρ c)

theorem W4_arg12 : W4 m ρ c (Proc.devRef .tc main_arg12) = (m ((c.tc : Thread nD τ).loc main_arg12)) :=
  (W4_of_ne m ρ c main_arg12 (by decide)).trans (W3_arg12 m ρ c)

theorem W4_arg13 : W4 m ρ c (Proc.devRef .tc main_arg13) = (m ((c.tc : Thread nD τ).loc main_arg13)) :=
  (W4_of_ne m ρ c main_arg13 (by decide)).trans (W3_arg13 m ρ c)

theorem W4_arg14 : W4 m ρ c (Proc.devRef .tc main_arg14) = (m ((c.tc : Thread nD τ).loc main_arg14)) :=
  (W4_of_ne m ρ c main_arg14 (by decide)).trans (W3_arg14 m ρ c)

theorem W4_arg2 : W4 m ρ c (Proc.devRef .tc main_arg2) = (m ((c.tc : Thread nD τ).loc main_arg2)) :=
  (W4_of_ne m ρ c main_arg2 (by decide)).trans (W3_arg2 m ρ c)

theorem W4_arg15 : W4 m ρ c (Proc.devRef .tc main_arg15) = (m ((c.tc : Thread nD τ).loc main_arg15)) :=
  (W4_of_ne m ρ c main_arg15 (by decide)).trans (W3_arg15 m ρ c)

theorem W4_arg16 : W4 m ρ c (Proc.devRef .tc main_arg16) = (m ((c.tc : Thread nD τ).loc main_arg16)) :=
  (W4_of_ne m ρ c main_arg16 (by decide)).trans (W3_arg16 m ρ c)

end Cert.KernelIdeal.Fold

end
-- ==== Proof.Fold.lean ====
/-
  The kernel program's buffers: from the second launch's output to the result.

  The third stretch aggregates the second hidden features; the third launch leaves conv₂ h₂, without a closing
  rectifier; the last stretch pools it per graph and applies the final linear layer. Read back to the launch
  memory, the result buffer holds the network of the arguments.
-/
import proofs.«154400_j58514634441241_1_alg».proof.Proof.FoldB

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.LibDenseLayer Cert.GinNet

variable (m : (ℓ : Loc nD τ sig) → Buf (Elt Ideal) ℓ) (ρ : Dev nD → PrngReg) (c : Dev nD)

theorem W5_v29 : W5 m ρ c (Proc.devRef .tc main_v29) = (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) := by
  show StableHlo.after hostOps2 (W4 m ρ c) (Proc.devRef .tc main_v29) = _
  dsimp only [hostOps2]
  after_results
  rw [W4_v29 m ρ c]
  all_goals rfl

/-- The aggregation of the second hidden features. -/
theorem W5_v39 : W5 m ρ c (Proc.devRef .tc main_v39) = agg (m ((c.tc : Thread nD τ).loc main_arg1)) (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) := by
  show StableHlo.after hostOps2 (W4 m ρ c) (Proc.devRef .tc main_v39) = _
  dsimp only [hostOps2]
  after_results_simp
  rw [W4_v29 m ρ c, W4_v1 m ρ c, W4_v3 m ρ c]
  all_goals rfl

theorem W5_arg11 : W5 m ρ c (Proc.devRef .tc main_arg11) = (m ((c.tc : Thread nD τ).loc main_arg11)) := by
  show StableHlo.after hostOps2 (W4 m ρ c) (Proc.devRef .tc main_arg11) = _
  dsimp only [hostOps2]
  after_results
  rw [W4_arg11 m ρ c]
  all_goals rfl

theorem W5_v40 : W5 m ρ c (Proc.devRef .tc main_v40) = (shapeCast S1x128 (m ((c.tc : Thread nD τ).loc main_arg12)) shapeCasts_S128_S1x128) := by
  show StableHlo.after hostOps2 (W4 m ρ c) (Proc.devRef .tc main_v40) = _
  dsimp only [hostOps2]
  after_results
  rw [W4_arg12 m ρ c]
  all_goals rfl

theorem W5_arg13 : W5 m ρ c (Proc.devRef .tc main_arg13) = (m ((c.tc : Thread nD τ).loc main_arg13)) := by
  show StableHlo.after hostOps2 (W4 m ρ c) (Proc.devRef .tc main_arg13) = _
  dsimp only [hostOps2]
  after_results
  rw [W4_arg13 m ρ c]
  all_goals rfl

theorem W5_v41 : W5 m ρ c (Proc.devRef .tc main_v41) = (shapeCast S1x128 (m ((c.tc : Thread nD τ).loc main_arg14)) shapeCasts_S128_S1x128) := by
  show StableHlo.after hostOps2 (W4 m ρ c) (Proc.devRef .tc main_v41) = _
  dsimp only [hostOps2]
  after_results
  rw [W4_arg14 m ρ c]
  all_goals rfl

theorem W5_arg2 : W5 m ρ c (Proc.devRef .tc main_arg2) = (m ((c.tc : Thread nD τ).loc main_arg2)) := by
  show StableHlo.after hostOps2 (W4 m ρ c) (Proc.devRef .tc main_arg2) = _
  dsimp only [hostOps2]
  after_results
  rw [W4_arg2 m ρ c]
  all_goals rfl

theorem W5_arg15 : W5 m ρ c (Proc.devRef .tc main_arg15) = (m ((c.tc : Thread nD τ).loc main_arg15)) := by
  show StableHlo.after hostOps2 (W4 m ρ c) (Proc.devRef .tc main_arg15) = _
  dsimp only [hostOps2]
  after_results
  rw [W4_arg15 m ρ c]
  all_goals rfl

theorem W5_arg16 : W5 m ρ c (Proc.devRef .tc main_arg16) = (m ((c.tc : Thread nD τ).loc main_arg16)) := by
  show StableHlo.after hostOps2 (W4 m ρ c) (Proc.devRef .tc main_arg16) = _
  dsimp only [hostOps2]
  after_results
  rw [W4_arg16 m ρ c]
  all_goals rfl

/-- Launch 2 leaves the layer of what it finds: the third hidden features. -/
theorem W6_v42 : W6 m ρ c (Proc.devRef .tc main_v42) = (conv (M := 100000) (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) (agg (m ((c.tc : Thread nD τ).loc main_arg1)) (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) (m ((c.tc : Thread nD τ).loc main_arg13)) (m ((c.tc : Thread nD τ).loc main_arg14))) := by
  refine (W6_arr m ρ c 6).trans ?_
  refine (Region.out2 (V5 m ρ) c (m ((c.tc : Thread nD τ).loc main_arg12)) (m ((c.tc : Thread nD τ).loc main_arg14)) (fun q => ?_) (fun q => ?_)).trans ?_
  · show W5 m ρ c (Proc.devRef .tc main_v40) (ix2 (0 : Fin 1) q) = _
    rw [W5_v40 m ρ c]
    exact shapeCast_a_1a_apply _ _ (0 : Fin 1) q
  · show W5 m ρ c (Proc.devRef .tc main_v41) (ix2 (0 : Fin 1) q) = _
    rw [W5_v41 m ρ c]
    exact shapeCast_a_1a_apply _ _ (0 : Fin 1) q
  · show conv (M := 100000) (W5 m ρ c (Proc.devRef .tc main_v29)) (W5 m ρ c (Proc.devRef .tc main_v39)) (W5 m ρ c (Proc.devRef .tc main_arg11)) (m ((c.tc : Thread nD τ).loc main_arg12)) (W5 m ρ c (Proc.devRef .tc main_arg13)) (m ((c.tc : Thread nD τ).loc main_arg14)) = _
    rw [W5_v29 m ρ c, W5_v39 m ρ c, W5_arg11 m ρ c, W5_arg13 m ρ c]

theorem W6_arg2 : W6 m ρ c (Proc.devRef .tc main_arg2) = (m ((c.tc : Thread nD τ).loc main_arg2)) :=
  (W6_of_ne m ρ c main_arg2 (by decide)).trans (W5_arg2 m ρ c)

theorem W6_arg15 : W6 m ρ c (Proc.devRef .tc main_arg15) = (m ((c.tc : Thread nD τ).loc main_arg15)) :=
  (W6_of_ne m ρ c main_arg15 (by decide)).trans (W5_arg15 m ρ c)

theorem W6_arg16 : W6 m ρ c (Proc.devRef .tc main_arg16) = (m ((c.tc : Thread nD τ).loc main_arg16)) :=
  (W6_of_ne m ρ c main_arg16 (by decide)).trans (W5_arg16 m ρ c)

/-- THE RESULT: the last stretch pools the third launch's output per graph and applies the final linear layer — the
    network of the arguments. -/
theorem value : W7 m ρ c (Proc.devRef .tc main_v58) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after hostOps3 (W6 m ρ c) (Proc.devRef .tc main_v58) = _
  dsimp only [hostOps3]
  after_results_simp
  rw [W6_v42 m ρ c, W6_arg2 m ρ c, W6_arg15 m ρ c, W6_arg16 m ρ c]
  all_goals rfl

end Cert.KernelIdeal.Fold

end
-- ==== Proof.RefValue.lean ====
/-
  The reference program computes the network.

  Its run ends with the result at one composed term of the arguments: every dense layer spelt as a product of the
  whole 100000-row matrix plus the bias sent to every row, every rectifier as the maximum with a zero sent to every
  entry, and after the second convolution the rectifier applied twice. Each dense layer is `affine`, each
  rectifier `relu`, and rectifying twice is rectifying once; what is left is the network's definition, the
  aggregation and the pooling in the very spelling the reference prints.
-/
import proofs.«154400_j58514634441241_1_alg».proof.Proof.Gen.ReferenceIdeal.Run
import proofs.«154400_j58514634441241_1_alg».proof.Proof.Spec

noncomputable section

namespace Cert.ReferenceIdeal.RefValue

open Idealize.ShloMosaic Idealize.ShloMosaic.TcCoe Idealize.SL.Sem
open Cert.ReferenceIdeal Cert.ReferenceIdeal.Facts₀ Cert.ReferenceIdeal.Value Cert.LibDenseLayer Cert.GinNet

/-- The reference's product record is the plain [100000, 128] × [128, 128] one. -/
theorem dot_eq : dot_S100000x128_S128x128_S100000x128_1_0_0_1_n_n
    = Cert.LibPlainDot.dims (M := 100000) (K := 128) (N := 128) dot_S100000x128_S128x128_S100000x128_1_0_0_1_n_n_wf := rfl

/-- The reference's dense layer is `affine`. -/
theorem hostAffine (h : Nodes) (w : Weight) (b : Bias) :
    addf (Host.dotGeneral dot_S100000x128_S128x128_S100000x128_1_0_0_1_n_n none h w)
      (broadcastInDim S100000x128 ![0, 1] bcast_S1x128_S100000x128_0_1 (broadcastInDim S1x128 ![1] bcast_S128_S1x128_1 b))
      = affine h w b := by
  rw [dot_eq]
  exact dot_bias dot_S100000x128_S128x128_S100000x128_1_0_0_1_n_n_wf bcast_S128_S1x128_1 bcast_S1x128_S100000x128_0_1 h w b

/-- The reference's rectifier is `relu`. -/
theorem hostRelu (v : Nodes) :
    maximumf v (broadcastInDim S100000x128 ![] bcast_S_S100000x128 (constant (F := Ideal) S_ .f32 0x00000000#32)) = relu v :=
  max_bcast bcast_S_S100000x128 v

set_option maxRecDepth 16384 in
set_option maxHeartbeats 4000000 in
/-- The reference run's result term is the network of the arguments. -/
theorem result_eq (m : (ℓ : Loc nD τ sig) → Buf (Elt Ideal) ℓ) (c : Dev nD) :
    res_main_v82 (F := Ideal) m c = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  unfold res_main_v82
  repeat rw [hostAffine]
  repeat rw [hostRelu]
  rw [relu_relu]
  rfl

end Cert.ReferenceIdeal.RefValue

end
-- ==== Proof.lean ====
/-
  A three-layer graph isomorphism network — three launches of a fused layer kernel among host gather / scatter-add
  aggregations, then mean pooling and a linear layer — against the same network written with whole-matrix products.

  Over the extended reals both programs compute one function of the arguments (`Cert.GinNet.net`). The aggregation and
  the pooling are the same host operations in both. A launch of the kernel computes, 5000 rows at a time,
  max(max((h + a)·w₁ + b₁, 0)·w₂ + b₂, 0) (the last launch without the closing maximum): its blocks tile the rows and a
  row of the result depends on that row of h and a alone, so the output array is the layer of the whole arrays. The
  reference applies the rectifier twice after the second convolution, and max(max(z, 0), 0) = max(z, 0). No step
  reorders a sum or moves a factor, so nothing needs the inputs finite.
  The frames are the launches' own runs; the ideal pass rewrote nothing, so `preserves` asks nothing.
-/
import proofs.«154400_j58514634441241_1_alg».proof.Defs
import proofs.«154400_j58514634441241_1_alg».proof.Proof.Gen.Kernel
import proofs.«154400_j58514634441241_1_alg».proof.Proof.Gen.Kernel.Frame
import proofs.«154400_j58514634441241_1_alg».proof.Proof.Gen.KernelIdeal
import proofs.«154400_j58514634441241_1_alg».proof.Proof.Gen.KernelIdeal.Frame
import proofs.«154400_j58514634441241_1_alg».proof.Proof.Gen.ReferenceIdeal
import proofs.«154400_j58514634441241_1_alg».proof.Proof.Gen.ReferenceIdeal.Run
import proofs.«154400_j58514634441241_1_alg».proof.Proof.Gen.Pre_finite_inputs
import proofs.«154400_j58514634441241_1_alg».proof.Proof.KernelRun
import proofs.«154400_j58514634441241_1_alg».proof.Proof.Fold
import proofs.«154400_j58514634441241_1_alg».proof.Proof.RefValue
import Idealize.ShloMosaic.Adequacy
import Idealize.ShloMosaic.Init

noncomputable section

namespace Cert.Proof

open Idealize.ShloMosaic Idealize.SL.Sem

/-- The word-level program runs and gives its arguments back. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the arguments. -/
theorem algebraic : Cert.algebraic_KernelIdeal_ReferenceIdeal := by
  intro m ρ m' ρ' _ hagree
  refine ⟨fun c => Cert.GinNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Fold.value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
